-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x128x128 : Shape := ⟨4, ![2, 16, 128, 128]⟩
abbrev S128x128x128x128 : Shape := ⟨4, ![128, 128, 128, 128]⟩
abbrev S_ : Shape := ⟨0, ![]⟩

class Facts : Prop where
  bcast_S_S2x16x128x128 : S_.BroadcastsInDim S2x16x128x128 (![] : Fin 0 → Fin S2x16x128x128.rank)
  reducesTo_S2x16x128x128_S_d0_1_2_3 : S2x16x128x128.ReducesTo [0, 1, 2, 3] S_
  h_S_ : 0 < S_.numel
  bcast_S_S128x128x128x128 : S_.BroadcastsInDim S128x128x128x128 (![] : Fin 0 → Fin S128x128x128x128.rank)
  reducesTo_S128x128x128x128_S_d0_1_2_3 : S128x128x128x128.ReducesTo [0, 1, 2, 3] S_

variable [Facts]

def fn {F : FTy → Type} [FloatOps F] (main_arg0 : FVec F S2x16x128x128 .f32) (main_arg1 : FVec F S128x128x128x128 .f32) : IVec S_ 1 :=
  let main_v0 : FVec F S2x16x128x128 .f32 := Host.absf main_arg0
  let main_cst : FVec F S_ .f32 := constant S_ .f32 0x7F800000#32
  let main_v1 : FVec F S2x16x128x128 .f32 := broadcastInDim S2x16x128x128 ![] bcast_S_S2x16x128x128 main_cst
  let main_v2 : IVec S2x16x128x128 1 := cmpf .olt main_v0 main_v1
  let main_c : IVec S_ 1 := constantI S_ 1 1#1
  let main_v3 : IVec S_ 1 := (fun x v => Host.reduce IntOp.andi x v reducesTo_S2x16x128x128_S_d0_1_2_3 h_S_) main_v2 main_c
  let main_v4 : FVec F S128x128x128x128 .f32 := Host.absf main_arg1
  let main_cst_0 : FVec F S_ .f32 := constant S_ .f32 0x7F800000#32
  let main_v5 : FVec F S128x128x128x128 .f32 := broadcastInDim S128x128x128x128 ![] bcast_S_S128x128x128x128 main_cst_0
  let main_v6 : IVec S128x128x128x128 1 := cmpf .olt main_v4 main_v5
  let main_c_1 : IVec S_ 1 := constantI S_ 1 1#1
  let main_v7 : IVec S_ 1 := (fun x v => Host.reduce IntOp.andi x v reducesTo_S128x128x128x128_S_d0_1_2_3 h_S_) main_v6 main_c_1
  let main_v8 : IVec S_ 1 := andi main_v3 main_v7
  main_v8
-- ==== Kernel.lean ====
abbrev S2x16x128x128 : Shape := ⟨4, ![2, 16, 128, 128]⟩
abbrev S128x128x128x128 : Shape := ⟨4, ![128, 128, 128, 128]⟩
abbrev S32x16384 : Shape := ⟨2, ![32, 16384]⟩
abbrev S16384x16384 : Shape := ⟨2, ![16384, 16384]⟩
abbrev S4096x512 : Shape := ⟨2, ![4096, 512]⟩
abbrev S32x512 : Shape := ⟨2, ![32, 512]⟩
abbrev S32x4096 : Shape := ⟨2, ![32, 4096]⟩

abbrev nBuf : Space → Nat
  | .hbm => 6
  | .vmem => 6
  | .smem => 0
  | _ => 0

abbrev bufTy : (tb : Table) → Fin (tcTables nBuf tb) → BufTy
  | .hbm, ⟨0, _⟩ => ⟨S2x16x128x128, .f32⟩
  | .hbm, ⟨1, _⟩ => ⟨S128x128x128x128, .f32⟩
  | .hbm, ⟨2, _⟩ => ⟨S32x16384, .f32⟩
  | .hbm, ⟨3, _⟩ => ⟨S16384x16384, .f32⟩
  | .hbm, ⟨4, _⟩ => ⟨S32x16384, .f32⟩
  | .hbm, ⟨5, _⟩ => ⟨S2x16x128x128, .f32⟩
  | .local _ .vmem, ⟨0, _⟩ => ⟨S32x16384, .f32⟩
  | .local _ .vmem, ⟨1, _⟩ => ⟨S4096x512, .f32⟩
  | .local _ .vmem, ⟨2, _⟩ => ⟨S4096x512, .f32⟩
  | .local _ .vmem, ⟨3, _⟩ => ⟨S32x512, .f32⟩
  | .local _ .vmem, ⟨4, _⟩ => ⟨S32x512, .f32⟩
  | .local _ .vmem, ⟨5, _⟩ => ⟨S32x512, .f32⟩
  | _, _ => ⟨S2x16x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c4096_i32 : BitVec 32 := 4096#32
  let v3 : BitVec 32 := Scalar.muli arg1 c4096_i32
  v3
def k0_off1 (i : grid0.Coords) : Fin 2 → Nat :=
  let c0 : Index := 0#32
  let arg1 : BitVec 32 := BitVec.ofNat 32 (i 1).val
  let c4096_i32 : BitVec 32 := 4096#32
  let v3 : BitVec 32 := Scalar.muli arg1 c4096_i32
  let v4 : BitVec 32 := v3
  let v5 : Index := Scalar.indexCast v4
  ![0, v5.toNat]
def k0_cond2 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S32x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S2x16x128x128_S32x16384 : S2x16x128x128.ShapeCasts S32x16384
  shapeCasts_S128x128x128x128_S16384x16384 : S128x128x128x128.ShapeCasts S16384x16384
  inb_S32x512_S32x512_0_0 : ∀ a, (![0, 0] : Fin 2 → Nat) a + S32x512.size a ≤ S32x512.size a
  h_S32x512 : 0 < S32x512.numel
  shapeCasts_S32x512_S32x512 : S32x512.ShapeCasts S32x512
  h_S32x4096 : 0 < S32x4096.numel
  shapeCasts_S32x4096_S32x4096 : S32x4096.ShapeCasts S32x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  shapeCasts_S32x16384_S2x16x128x128 : S32x16384.ShapeCasts S2x16x128x128
  dot_S32x4096_S4096x512_S32x512_1_0_0_1_n_n_wf : DotDims.WF S32x4096 S4096x512 S32x512 [1] [0] [0] [1] [] []
  hrank0 : 0 < grid0.rank
  k0_mult1_dvd : ∀ i : grid0.Coords, 128 ∣ (k0_mult1 i).toNat
  k0_off1_inb : ∀ i : grid0.Coords, ∀ a, (k0_off1 i) a + S32x4096.size a ≤ S32x16384.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x16384.size a ≤ S32x16384.size a
  hwx0_0 : ∀ i : grid0.Coords, EltTy.bits .f32 = 32 ∨ (Rect.block (s := S32x16384) S32x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S16384x16384.size a
  hwx0_1 : ∀ i : grid0.Coords, EltTy.bits .f32 = 32 ∨ (Rect.block (s := S16384x16384) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x16384.size a
  hwx0_2 : ∀ i : grid0.Coords, EltTy.bits .f32 = 32 ∨ (Rect.block (s := S32x16384) S32x512.size (cc0_transform_2 i) (hinb0_2 i)).WholeWords (EltTy.packing .f32)

variable [Facts₀]

def dot_S32x4096_S4096x512_S32x512_1_0_0_1_n_n : DotDims S32x4096 S4096x512 S32x512 where
  lhsContracting := [1]
  rhsContracting := [0]
  lhsNonContracting := [0]
  rhsNonContracting := [1]
  lhsBatch := []
  rhsBatch := []
  wf := dot_S32x4096_S4096x512_S32x512_1_0_0_1_n_n_wf

abbrev win0_0 : Pipeline.Window sig grid0 :=
  Pipeline.Window.ofSpec (Memref.whole main_v0) S32x16384.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x16x128x128 : Shape := ⟨4, ![2, 16, 128, 128]⟩
abbrev S128x128x128x128 : Shape := ⟨4, ![128, 128, 128, 128]⟩
abbrev S16384x16384 : Shape := ⟨2, ![16384, 16384]⟩
abbrev S32x16384 : Shape := ⟨2, ![32, 16384]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2x16x128x128, .f32⟩
  | .hbm, ⟨1, _⟩ => ⟨S128x128x128x128, .f32⟩
  | .hbm, ⟨2, _⟩ => ⟨S16384x16384, .f32⟩
  | .hbm, ⟨3, _⟩ => ⟨S32x16384, .f32⟩
  | .hbm, ⟨4, _⟩ => ⟨S_, .f32⟩
  | .hbm, ⟨5, _⟩ => ⟨S32x16384, .f32⟩
  | .hbm, ⟨6, _⟩ => ⟨S32x16384, .f32⟩
  | .hbm, ⟨7, _⟩ => ⟨S32x16384, .f32⟩
  | .hbm, ⟨8, _⟩ => ⟨S_, .f32⟩
  | .hbm, ⟨9, _⟩ => ⟨S32x16384, .f32⟩
  | .hbm, ⟨10, _⟩ => ⟨S32x16384, .f32⟩
  | .hbm, ⟨11, _⟩ => ⟨S2x16x128x128, .f32⟩
  | _, _ => ⟨S2x16x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  shapeCasts_S128x128x128x128_S16384x16384 : S128x128x128x128.ShapeCasts S16384x16384
  shapeCasts_S2x16x128x128_S32x16384 : S2x16x128x128.ShapeCasts S32x16384
  bcast_S_S32x16384 : S_.BroadcastsInDim S32x16384 (![] : Fin 0 → Fin S32x16384.rank)
  shapeCasts_S32x16384_S2x16x128x128 : S32x16384.ShapeCasts S2x16x128x128
  dot_S32x16384_S16384x16384_S32x16384_1_0_0_1_n_n_wf : DotDims.WF S32x16384 S16384x16384 S32x16384 [1] [0] [0] [1] [] []

variable [Facts₀]

def dot_S32x16384_S16384x16384_S32x16384_1_0_0_1_n_n : DotDims S32x16384 S16384x16384 S32x16384 where
  lhsContracting := [1]
  rhsContracting := [0]
  lhsNonContracting := [0]
  rhsNonContracting := [1]
  lhsBatch := []
  rhsBatch := []
  wf := dot_S32x16384_S16384x16384_S32x16384_1_0_0_1_n_n_wf

class Facts : Prop extends Facts₀ where

variable [Facts]
-- ==== Proof.Pieces.lean ====
/-
  What one grid point leaves behind, as values. The body keeps a 32 × 512 accumulator between grid points. At a point
  whose second coordinate is 0 it stores zeros into the accumulator first; at every point it adds to the accumulator
  the product of a 32 × 4096 column strip of the resident left block (rectified) with the 4096 × 512 right block; at a
  point whose second coordinate is 3 it also stores the accumulator times 2⁻⁷ into the output block. Each store covers
  its whole buffer, so what a buffer holds afterwards is the last store's value.
-/
import proofs.«116813_j56298431316042_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- The 32 × 4096 column strip of the resident left block that the body loads at grid point `i`. -/
def strip (i : grid0.Coords) (x0 : Vec F S32x16384 .f32) : Vec F S32x4096 .f32 :=
  View.ld x0 (Rect.unit (k0_off1 i) S32x4096.size (k0_off1_inb i))

/-- The accumulator after one more product is added to what it held (`acc`). -/
def step (i : grid0.Coords) (x0 : Vec F S32x16384 .f32) (x1 : Vec F S4096x512 .f32) (acc : Vec F S32x512 .f32) : Vec F S32x512 .f32 :=
  k0_pay2 (strip i x0) acc x1

/-- At a point that resets: the accumulator ends at the zero block plus the point's product. -/
theorem acc_reset (c : Dev nD) (i : grid0.Coords) (a2 : Memref sig .tc .vmem S32x16384 .f32) (h2 : a2.IsWhole)
    (a3 : Memref sig .tc .vmem S4096x512 .f32) (h3 : a3.IsWhole) (a4 : Memref sig .tc .vmem S32x512 .f32) (h4 : a4.IsWhole)
    (a5 : Memref sig .tc .vmem S32x512 .f32) (h5 : a5.IsWhole) (hc0 : cond0_0 i) (hc1 : ¬cond0_1 i)
    (x0 : Vec F S32x16384 .f32) (x1 : Vec F S4096x512 .f32) :
    sout0_A_0 c i a2 h2 a3 h3 a4 h4 a5 h5 hc0 hc1 x0 x1 = step i x0 x1 k0_pay1 := by
  unfold sout0_A_0
  rw [View.read_writes_eq_canon _ _ _ (scover0_A_0 c i a2 h2 a3 h3 a4 h4 a5 h5 hc0 hc1 x0 x1)]
  unfold kernelRun0_A
  dsimp only
  sl_unfold_run_names
  rw [View.canon_cons_unit_zero (S := S32x512) hz, View.readCov_unit_zero (S := S32x512) _ hz]
  simp only [View.readAt_eq_ld, h2.read_unread, h3.read_unread, View.ld_unit_zero (S := S4096x512) hz]
  rfl

/-- At a middle point: the accumulator ends at what it held plus the point's product. -/
theorem acc_middle (c : Dev nD) (i : grid0.Coords) (a2 : Memref sig .tc .vmem S32x16384 .f32) (h2 : a2.IsWhole)
    (a3 : Memref sig .tc .vmem S4096x512 .f32) (h3 : a3.IsWhole) (a4 : Memref sig .tc .vmem S32x512 .f32) (h4 : a4.IsWhole)
    (a5 : Memref sig .tc .vmem S32x512 .f32) (h5 : a5.IsWhole) (hc0 : ¬cond0_0 i) (hc1 : ¬cond0_1 i)
    (x0 : Vec F S32x16384 .f32) (x1 : Vec F S4096x512 .f32) (xs0 : Vec F S32x512 .f32) :
    sout0_B_0 c i a2 h2 a3 h3 a4 h4 a5 h5 hc0 hc1 x0 x1 xs0 = step i x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz]
  simp only [View.readAt_eq_ld, h2.read_unread, h3.read_unread, h5.read_unread, View.ld_unit_zero (S := S32x512) hz,
    View.ld_unit_zero (S := S4096x512) hz]
  rfl

/-- At a last point: the accumulator ends at what it held plus the point's product, -/
theorem acc_last (c : Dev nD) (i : grid0.Coords) (a2 : Memref sig .tc .vmem S32x16384 .f32) (h2 : a2.IsWhole)
    (a3 : Memref sig .tc .vmem S4096x512 .f32) (h3 : a3.IsWhole) (a4 : Memref sig .tc .vmem S32x512 .f32) (h4 : a4.IsWhole)
    (a5 : Memref sig .tc .vmem S32x512 .f32) (h5 : a5.IsWhole) (hc0 : ¬cond0_0 i) (hc1 : cond0_1 i)
    (x0 : Vec F S32x16384 .f32) (x1 : Vec F S4096x512 .f32) (xs0 : Vec F S32x512 .f32) :
    sout0_C_0 c i a2 h2 a3 h3 a4 h4 a5 h5 hc0 hc1 x0 x1 xs0 = step i x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_run_names
  rw [View.canon_unit_zero hz]
  simp only [View.readAt_eq_ld, h2.read_unread, h3.read_unread, h5.read_unread, View.ld_unit_zero (S := S32x512) hz,
    View.ld_unit_zero (S := S4096x512) hz]
  rfl

/-- and the output block at that accumulator scaled. -/
theorem out_last (c : Dev nD) (i : grid0.Coords) (a2 : Memref sig .tc .vmem S32x16384 .f32) (h2 : a2.IsWhole)
    (a3 : Memref sig .tc .vmem S4096x512 .f32) (h3 : a3.IsWhole) (a4 : Memref sig .tc .vmem S32x512 .f32) (h4 : a4.IsWhole)
    (a5 : Memref sig .tc .vmem S32x512 .f32) (h5 : a5.IsWhole) (hc0 : ¬cond0_0 i) (hc1 : cond0_1 i)
    (x0 : Vec F S32x16384 .f32) (x1 : Vec F S4096x512 .f32) (xs0 : Vec F S32x512 .f32) :
    out0_C_2 c i a2 h2 a3 h3 a4 h4 a5 h5 hc0 hc1 x0 x1 xs0 = k0_pay3 (step i x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_run_names
  rw [View.canon_unit_zero hz, View.readCov_unit_zero (S := S32x512) _ hz]
  simp only [View.readAt_eq_ld, h2.read_unread, h3.read_unread, h5.read_unread, View.ld_unit_zero (S := S32x512) hz,
    View.ld_unit_zero (S := S4096x512) hz]
  rfl

end Cert.KernelIdeal.Acc

end
-- ==== Proof.Payload.lean ====
/-
  The body's three stored values read at an entry, on extended reals: the reset value is the zero word; the
  accumulation step at (r, q) is the accumulator's entry plus ∑ k, max (strip (r, k)) 0 · block (k, q), the matrix unit's
  product into a zero accumulator being that plain sum; the output value is the accumulator's entry times the word of 2⁻⁷.
-/
import proofs.«116813_j56298431316042_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Pay

open Cert.KernelIdeal Cert.KernelIdeal.Gen
open Idealize.ShloMosaic Idealize.ShloMosaic.ValueIdx

/-- The product's dimension numbers: [32, 4096] × [4096, 512], contracting the 4096. -/
abbrev D : DotDims S32x4096 S4096x512 S32x512 := dot_S32x4096_S4096x512_S32x512_1_0_0_1_n_n

theorem lhs_0 (j : S32x512.Idx) (p : D.contr.Idx) : (D.lhsIdx j p 0).val = (j 0).val := by
  unfold DotDims.lhsIdx
  rw [dif_neg (show ¬(0 : Fin S32x4096.rank) ∈ D.lhsBatch by decide), dif_pos (show (0 : Fin S32x4096.rank) ∈ D.lhsNonContracting by decide)]
  rfl
theorem lhs_1 (j : S32x512.Idx) (p : D.contr.Idx) : (D.lhsIdx j p 1).val = (p ⟨0, by decide⟩).val :=
  D.lhsIdx_val_of_single rfl j p
theorem rhs_0 (j : S32x512.Idx) (p : D.contr.Idx) : (D.rhsIdx j p 0).val = (p ⟨0, by decide⟩).val :=
  D.rhsIdx_val_of_single rfl j p
theorem rhs_1 (j : S32x512.Idx) (p : D.contr.Idx) : (D.rhsIdx j p 1).val = (j 1).val := by
  unfold DotDims.rhsIdx
  rw [dif_neg (show ¬(1 : Fin S4096x512.rank) ∈ D.rhsBatch by decide), dif_pos (show (1 : Fin S4096x512.rank) ∈ D.rhsNonContracting by decide)]
  rfl

/-- The matrix unit's product into a zero accumulator, at (r, q): the sum over the 4096 contraction positions. -/
theorem product_apply (a : FVec Ideal S32x4096 .f32) (b : FVec Ideal S4096x512 .f32) (r : Fin 32) (q : Fin 512) :
    FloatOps.matmul D none a b (constant (F := Ideal) S32x512 .f32 0x00000000#32) (ix2 r q)
      = ∑ k : Fin 4096, a (ix2 r k) * b (ix2 k q) := by
  rw [Ideal.matmul_constant_zero_apply, ← Equiv.sum_comp (contrEquiv1 D 4096 rfl rfl).symm]
  refine Finset.sum_congr rfl fun k _ => ?_
  have hk := contrEquiv1_symm_val D 4096 rfl rfl k
  have el : D.lhsIdx (ix2 r q) ((contrEquiv1 D 4096 rfl rfl).symm k) = ix2 r k := funext fun a => Fin.ext (by
    match a with
    | ⟨0, _⟩ => exact lhs_0 _ _
    | ⟨1, _⟩ => exact (lhs_1 _ _).trans hk)
  have er : D.rhsIdx (ix2 r q) ((contrEquiv1 D 4096 rfl rfl).symm k) = ix2 k q := funext fun a => Fin.ext (by
    match a with
    | ⟨0, _⟩ => exact (rhs_0 _ _).trans hk
    | ⟨1, _⟩ => exact rhs_1 _ _)
  rw [el, er]

/-- The reset value: the zero word everywhere. -/
theorem reset_apply (j : S32x512.Idx) : k0_pay1 (F := Ideal) j = Ideal.ofBits .f32 0x00000000#32 := by
  unfold k0_pay1
  simp only [shapeCast_self]
  rfl

/-- The accumulation step at (r, q). -/
theorem step_apply (v6 : Vec Ideal S32x4096 .f32) (v10 : Vec Ideal S32x512 .f32) (v11 : Vec Ideal S4096x512 .f32)
    (r : Fin 32) (q : Fin 512) :
    k0_pay2 (F := Ideal) v6 v10 v11 (ix2 r q)
      = v10 (ix2 r q) + ∑ k : Fin 4096, max (v6 (ix2 r k)) (Ideal.ofBits .f32 0x00000000#32) * v11 (ix2 k q) := by
  unfold k0_pay2
  simp only [shapeCast_self]
  exact congrArg (v10 (ix2 r q) + ·) (product_apply _ _ r q)

/-- The output value: the accumulator's entry times the word of 2⁻⁷. -/
theorem scale_apply (v21 : Vec Ideal S32x512 .f32) (j : S32x512.Idx) :
    k0_pay3 (F := Ideal) v21 j = v21 j * Ideal.ofBits .f32 0x3C000000#32 := rfl

end Cert.KernelIdeal.Pay

end
-- ==== Proof.Spec.lean ====
/-
  The function both programs compute, on extended reals: for a matrix `x` of 32 rows and 16384 columns and a
  square matrix `v` of order 16384,

      out (r, q) = (∑ k, max (x (r, k)) 0 · v (k, q)) · 2⁻⁷ .

  One program forms the sum in one piece and divides by 128. The other cuts the 16384 terms into four consecutive
  runs of 4096, adds the four partial sums one after the other onto a zero, and multiplies by the word of 2⁻⁷.
  Addition of extended reals is commutative and associative, so the four partial sums added in order are the whole sum
  (`chain_eq_sum`), and dividing by the real 128 is multiplying by the real 1/128 on every extended real
  (`div_128`). Neither step asks the entries to be finite.
-/
import Idealize.ShloMosaic.PureOps.Ideal
import Idealize.ShloMosaic.PureOps.Ideal.Laws
import Idealize.ShloMosaic.Lib.ValueIdx

noncomputable section

open scoped BigOperators

namespace Cert.ScaledDot

open Idealize.ShloMosaic Idealize.ShloMosaic.ValueIdx

/-- The left factor's shape, 32 × 16384. -/
abbrev SX : Shape := ⟨2, ![32, 16384]⟩
/-- The right factor's shape, 16384 × 16384. -/
abbrev SV : Shape := ⟨2, ![16384, 16384]⟩

/-- The word of `+0.0` as an extended real. -/
abbrev zeroW : EReal := Ideal.ofBits .f32 0x00000000#32
/-- The word of `2⁻⁷ = 0.0078125` as an extended real. -/
abbrev scaleW : EReal := Ideal.ofBits .f32 0x3C000000#32
/-- The word of `128.0` as an extended real. -/
abbrev divW : EReal := Ideal.ofBits .f32 0x43000000#32

/-- A natural number as a column or contraction position (positions below 16384 are themselves). -/
def pos (n : ℕ) : Fin 16384 := ⟨n % 16384, Nat.mod_lt _ (by norm_num)⟩

theorem pos_coe (n : ℕ) : (pos n).val = n % 16384 := rfl

theorem pos_val (k : Fin 16384) : pos k.val = k := Fin.ext (Nat.mod_eq_of_lt k.isLt)

theorem pos_of_lt (n : ℕ) (h : n < 16384) : pos n = ⟨n, h⟩ := Fin.ext (Nat.mod_eq_of_lt h)

/-- One term of the contraction at row `r`, column `q`: the rectified entry of `x` times the entry of `v`. -/
def term (x : SX.Idx → EReal) (v : SV.Idx → EReal) (r : Fin 32) (q : Fin 16384) (k : ℕ) : EReal :=
  max (x (ix2 r (pos k))) zeroW * v (ix2 (pos k) q)

/-- The whole contraction at `(r, q)`. -/
def dotAt (x : SX.Idx → EReal) (v : SV.Idx → EReal) (r : Fin 32) (q : Fin 16384) : EReal :=
  ∑ k : Fin 16384, term x v r q k.val

/-- The result: the contraction scaled by `2⁻⁷`. -/
def out (x : SX.Idx → EReal) (v : SV.Idx → EReal) : SX.Idx → EReal :=
  fun j => dotAt x v (j 0) (j 1) * scaleW

/-- The partial sum over the `a`-th run of 4096 consecutive terms. -/
def run (x : SX.Idx → EReal) (v : SV.Idx → EReal) (r : Fin 32) (q : Fin 16384) (a : ℕ) : EReal :=
  ∑ k : Fin 4096, term x v r q (a * 4096 + k.val)

/-- The partial sums added in order onto the zero word: after run `a`. -/
def chain (x : SX.Idx → EReal) (v : SV.Idx → EReal) (r : Fin 32) (q : Fin 16384) : ℕ → EReal
  | 0 => zeroW + run x v r q 0
  | a + 1 => chain x v r q a + run x v r q (a + 1)

theorem chain_zero (x : SX.Idx → EReal) (v : SV.Idx → EReal) (r : Fin 32) (q : Fin 16384) :
    chain x v r q 0 = zeroW + run x v r q 0 := rfl

theorem chain_succ (x : SX.Idx → EReal) (v : SV.Idx → EReal) (r : Fin 32) (q : Fin 16384) (a : ℕ) :
    chain x v r q (a + 1) = chain x v r q a + run x v r q (a + 1) := rfl

/-- A sum over `Fin 4096` of a function of the position is the sum over the first 4096 naturals. -/
theorem run_eq_range (f : ℕ → EReal) (a : ℕ) :
    ∑ k : Fin 4096, f (a * 4096 + k.val) = ∑ k ∈ Finset.range 4096, f (a * 4096 + k) :=
  Fin.sum_univ_eq_sum_range (fun k => f (a * 4096 + k)) 4096

/-- The four partial sums, added in order onto zero, are the whole contraction. -/
theorem chain_eq_sum (x : SX.Idx → EReal) (v : SV.Idx → EReal) (r : Fin 32) (q : Fin 16384) :
    chain x v r q 3 = dotAt x v r q := by
  unfold dotAt
  rw [Fin.sum_univ_eq_sum_range (fun k => term x v r q k) 16384,
    show (16384 : ℕ) = 4096 + 4096 + 4096 + 4096 from rfl,
    Finset.sum_range_add, Finset.sum_range_add, Finset.sum_range_add]
  simp only [chain, run, run_eq_range (term x v r q)]
  have hz : zeroW = 0 := Ideal.ofBits_zero_f32
  rw [hz, zero_add]
  simp only [Nat.zero_mul, Nat.zero_add, Nat.one_mul]

/-- The first argument's shape, 2 × 16 × 128 × 128: its row-major reading as 32 × 16384 is `x`. -/
abbrev SA : Shape := ⟨4, ![2, 16, 128, 128]⟩
/-- The second argument's shape, 128 × 128 × 128 × 128: its row-major reading as 16384 × 16384 is `v`. -/
abbrev SB : Shape := ⟨4, ![128, 128, 128, 128]⟩

/-- The whole function of the two argument arrays: read them row-major as the two matrices, take `out`, and read the
    32 × 16384 result row-major as 2 × 16 × 128 × 128. -/
def whole (h0 : SA.ShapeCasts SX) (h1 : SB.ShapeCasts SV) (h2 : SX.ShapeCasts SA)
    (a : SA.Idx → EReal) (b : SB.Idx → EReal) : SA.Idx → EReal :=
  shapeCast SA (out (shapeCast SX a h0) (shapeCast SV b h1)) h2

/-- The word `128.0` is the real 128. -/
theorem divW_eq : divW = ((128 : ℝ) : EReal) := by
  simp [divW, Ideal.ofBits, Ideal.ieee, -EReal.coe_mul]; norm_num

/-- The word `0.0078125` is the real 1/128. -/
theorem scaleW_eq : scaleW = ((1 / 128 : ℝ) : EReal) := by
  simp [scaleW, Ideal.ofBits, Ideal.ieee, -EReal.coe_mul]; norm_num

/-- Dividing any extended real by the word of 128 is multiplying it by the word of 2⁻⁷. -/
theorem div_128 (s : EReal) : Ideal.div s divW = s * scaleW := by
  rw [divW_eq, scaleW_eq]
  exact Ideal.div_coe (by norm_num) s

end Cert.ScaledDot

end
-- ==== Proof.Accum.lean ====
/-
  The accumulator over the grid. Grid point number n has column block n / 4 and contraction run n % 4: it reads the
  whole 32 × 16384 left matrix and rows (n % 4)·4096 … of columns (n / 4)·512 … of the right matrix. By induction on
  the point, after point n the accumulator's entry (r, q) is the first n % 4 + 1 partial sums of the contraction at
  row r and column (n / 4)·512 + q, added in order onto zero; at a point with n % 4 = 3 the output block's entry is
  that value times 2⁻⁷, which is the specification's entry.
-/
import proofs.«116813_j56298431316042_2_alg».proof.Proof.Pieces
import proofs.«116813_j56298431316042_2_alg».proof.Proof.Payload
import proofs.«116813_j56298431316042_2_alg».proof.Proof.Spec

noncomputable section

open scoped BigOperators
open Idealize.ShloMosaic Idealize.ShloMosaic.TcCoe Idealize.SL.Sem

namespace Cert.KernelIdeal.Acc

open Cert.KernelIdeal Cert.KernelIdeal.Gen
open Idealize.ShloMosaic.ValueIdx Cert.ScaledDot

variable (m : (ℓ : Loc nD τ sig) → Buf (Elt Ideal) ℓ)

/-- The left matrix as the region finds it. -/
abbrev X (c : Dev nD) : SX.Idx → EReal := V m c main_v0
/-- The right matrix as the region finds it. -/
abbrev Vm (c : Dev nD) : SV.Idx → EReal := V m c main_v1

/-- The block index maps and the second grid coordinate at point number t, decided over the 128 points. -/
theorem idx_facts : ∀ t : Fin cfg0.N,
    win0_0.index t (0 : Fin 2) = 0 ∧ win0_0.index t (1 : Fin 2) = 0
    ∧ win0_1.index t (0 : Fin 2) = t.val % 4 ∧ win0_1.index t (1 : Fin 2) = t.val / 4
    ∧ win0_2.index t (0 : Fin 2) = 0 ∧ win0_2.index t (1 : Fin 2) = t.val / 4
    ∧ ((grid0.coords t) 1).val = t.val % 4 :=
  (by decide +kernel : ∀ t : Fin grid0.N, _)

/-- The left window's block is the whole left matrix at every point. -/
theorem left_blk (c : Dev nD) (t : Fin cfg0.N) (r : Fin 32) (k : Fin 16384) :
    (iblk m c 0 t : Vec Ideal S32x16384 .f32) (ix2 r k) = X m c (ix2 r k) := by
  obtain ⟨e0, e1, -⟩ := idx_facts t
  unfold iblk
  rw [View.read_apply]
  show V m c main_v0 (((cfg0.win 0).blk t).view.emb (ix2 r k)) = V m c main_v0 (ix2 r k)
  refine congrArg (V m c main_v0) (funext fun a => Fin.ext ?_)
  match a with
  | ⟨0, _⟩ => show win0_0.index t (0 : Fin 2) * 32 + 1 * r.val = r.val; rw [e0]; omega
  | ⟨1, _⟩ => show win0_0.index t (1 : Fin 2) * 16384 + 1 * k.val = k.val; rw [e1]; omega

/-- The right window's block at point t: rows (t % 4)·4096 …, columns (t / 4)·512 … of the right matrix. -/
theorem right_blk (c : Dev nD) (t : Fin cfg0.N) (k : Fin 4096) (q : Fin 512) :
    (iblk m c 1 t : Vec Ideal S4096x512 .f32) (ix2 k q)
      = Vm m c (ix2 (pos (t.val % 4 * 4096 + k.val)) (pos (t.val / 4 * 512 + q.val))) := by
  obtain ⟨-, -, e2, e3, -⟩ := idx_facts t
  have hN : t.val < 128 := lt_of_lt_of_eq t.isLt (show cfg0.N = 128 from N_0)
  unfold iblk
  rw [View.read_apply]
  show V m c main_v1 (((cfg0.win 1).blk t).view.emb (ix2 k q)) = V m c main_v1 _
  refine congrArg (V m c main_v1) (funext fun a => Fin.ext ?_)
  match a with
  | ⟨0, _⟩ => show win0_1.index t (0 : Fin 2) * 4096 + 1 * k.val = (t.val % 4 * 4096 + k.val) % 16384; rw [e2]; omega
  | ⟨1, _⟩ => show win0_1.index t (1 : Fin 2) * 512 + 1 * q.val = (t.val / 4 * 512 + q.val) % 16384; rw [e3]; omega

/-- The strip the body loads at point t: columns (t % 4)·4096 … of the resident block. -/
theorem strip_apply (t : Fin cfg0.N) (x0 : Vec Ideal S32x16384 .f32) (r : Fin 32) (k : Fin 4096) :
    strip (grid0.coords t) x0 (ix2 r k) = x0 (ix2 r (pos (t.val % 4 * 4096 + k.val))) := by
  obtain ⟨-, -, -, -, -, -, e6⟩ := idx_facts t
  have hN : t.val < 128 := lt_of_lt_of_eq t.isLt (show cfg0.N = 128 from N_0)
  unfold strip
  show x0 ((Rect.unit (s := S32x16384) (k0_off1 (grid0.coords t)) S32x4096.size (k0_off1_inb (grid0.coords t))).idx (ix2 r k)) = _
  refine congrArg x0 (funext fun a => Fin.ext ?_)
  match a with
  | ⟨0, _⟩ =>
    show k0_off1 (grid0.coords t) 0 + 1 * r.val = r.val
    rw [k0_off1_eq]; show 0 + 1 * r.val = r.val; omega
  | ⟨1, _⟩ =>
    show k0_off1 (grid0.coords t) 1 + 1 * k.val = (t.val % 4 * 4096 + k.val) % 16384
    rw [k0_off1_eq]; show 4096 * ((grid0.coords t) 1).val + 1 * k.val = _; rw [e6]; omega

/-- One accumulation step at point t, at entry (r, q): the accumulator's entry plus run t % 4 of the contraction at row
    r and column (t / 4)·512 + q — for any resident block that reads the left matrix and any right block that reads
    the right matrix where the window puts it. -/
theorem step_at (t : Fin cfg0.N) (A : SX.Idx → EReal) (B : SV.Idx → EReal)
    (x0 : Vec Ideal S32x16384 .f32) (x1 : Vec Ideal S4096x512 .f32) (acc : Vec Ideal S32x512 .f32)
    (hx0 : ∀ (r : Fin 32) (k : Fin 16384), x0 (ix2 r k) = A (ix2 r k))
    (hx1 : ∀ (k : Fin 4096) (q : Fin 512), x1 (ix2 k q) = B (ix2 (pos (t.val % 4 * 4096 + k.val)) (pos (t.val / 4 * 512 + q.val))))
    (r : Fin 32) (q : Fin 512) :
    step (grid0.coords t) x0 x1 acc (ix2 r q)
      = acc (ix2 r q) + run A B r (pos (t.val / 4 * 512 + q.val)) (t.val % 4) := by
  unfold step
  refine (Pay.step_apply _ _ _ r q).trans ?_
  refine congrArg (acc (ix2 r q) + ·) ?_
  unfold run term
  refine Finset.sum_congr rfl fun k _ => ?_
  rw [strip_apply, hx0, hx1]

/-- After a resetting point the accumulator holds the first run added onto zero. -/
theorem acc_first (c : Dev nD) (t : Fin cfg0.N) (h0 : t.val % 4 = 0) (r : Fin 32) (q : Fin 512) :
    (outsAt0 m c t.val t.isLt).2 (ix2 r q)
      = chain (X m c) (Vm m c) r (pos (t.val / 4 * 512 + q.val)) (t.val % 4) := by
  have h1 : ¬t.val % 4 = 3 := by omega
  rw [outsAt0_A m c t h0 h1]
  dsimp only
  rw [acc_reset]
  refine (step_at t (X m c) (Vm m c) _ _ _ (left_blk m c t) (right_blk m c t) r q).trans ?_
  rw [Pay.reset_apply, h0]
  rfl

/-- After point n the accumulator holds the first n % 4 + 1 runs added in order onto zero. -/
theorem acc_eq (c : Dev nD) : ∀ (n : ℕ) (h : n < cfg0.N) (r : Fin 32) (q : Fin 512),
    (outsAt0 m c n h).2 (ix2 r q) = chain (X m c) (Vm m c) r (pos (n / 4 * 512 + q.val)) (n % 4)
  | 0, h, r, q => acc_first m c ⟨0, h⟩ rfl r q
  | n + 1, h, r, q => by
    by_cases h0 : (n + 1) % 4 = 0
    · exact acc_first m c ⟨n + 1, h⟩ h0 r q
    · have e1 : (n + 1) / 4 = n / 4 := by omega
      have e2 : (n + 1) % 4 = n % 4 + 1 := by omega
      have ih := acc_eq c n (Nat.lt_of_succ_lt h) r q
      have h0' : ¬(⟨n + 1, h⟩ : Fin cfg0.N).val % 4 = 0 := h0
      by_cases h1 : (n + 1) % 4 = 3
      · have h1' : (⟨n + 1, h⟩ : Fin cfg0.N).val % 4 = 3 := h1
        rw [outsAt0_C m c ⟨n + 1, h⟩ h0' h1']
        dsimp only
        rw [acc_last]
        refine (step_at ⟨n + 1, h⟩ (X m c) (Vm m c) _ _ _ (left_blk m c _) (right_blk m c _) r q).trans ?_
        show (outsAt0 m c n _).2 (ix2 r q) + run (X m c) (Vm m c) r (pos ((n + 1) / 4 * 512 + q.val)) ((n + 1) % 4) = _
        rw [ih, e1, e2, chain_succ]
      · have h1' : ¬(⟨n + 1, h⟩ : Fin cfg0.N).val % 4 = 3 := h1
        rw [outsAt0_B m c ⟨n + 1, h⟩ h0' h1']
        dsimp only
        rw [acc_middle]
        refine (step_at ⟨n + 1, h⟩ (X m c) (Vm m c) _ _ _ (left_blk m c _) (right_blk m c _) r q).trans ?_
        show (outsAt0 m c n _).2 (ix2 r q) + run (X m c) (Vm m c) r (pos ((n + 1) / 4 * 512 + q.val)) ((n + 1) % 4) = _
        rw [ih, e1, e2, chain_succ]

/-- At a last point the output block is the accumulator scaled, entry by entry. -/
theorem out_scaled (c : Dev nD) (t : Fin cfg0.N) (h3 : t.val % 4 = 3) (j : S32x512.Idx) :
    (outsAt0 m c t.val t.isLt).1 j = (outsAt0 m c t.val t.isLt).2 j * scaleW := by
  have h0 : ¬t.val % 4 = 0 := by omega
  rw [outsAt0_C m c t h0 h3]
  dsimp only
  rw [out_last, acc_last]
  rfl

/-- So at a last point the output block's entry (r, q) is the specification's entry at row r, column (t / 4)·512 + q. -/
theorem out_at (c : Dev nD) (t : Fin cfg0.N) (h3 : t.val % 4 = 3) (r : Fin 32) (q : Fin 512) :
    (outsAt0 m c t.val t.isLt).1 (ix2 r q) = out (X m c) (Vm m c) (ix2 r (pos (t.val / 4 * 512 + q.val))) := by
  rw [out_scaled m c t h3, acc_eq m c t.val t.isLt r q, h3, chain_eq_sum]
  rfl

end Cert.KernelIdeal.Acc

end
-- ==== Proof.KernelValue.lean ====
/-
  The kernel program's result. Only the points with n % 4 = 3 write the output block back, and point n writes columns
  (n / 4)·512 … of the 32 × 16384 result; those 32 blocks tile it, and each is the specification's block, so the
  result array of the region is `out` of the two matrices the region finds. The region finds the two arguments read
  row-major as the two matrices, and the one operation after the region reads its result row-major as
  2 × 16 × 128 × 128: the program's result is `whole` of its arguments.
-/
import proofs.«116813_j56298431316042_2_alg».proof.Proof.Accum
import Idealize.ShloMosaic.Lib.StableHlo.Run

noncomputable section

open Idealize.ShloMosaic Idealize.ShloMosaic.TcCoe Idealize.SL.Sem
open Idealize.ShloMosaic.Pipeline (Dat)

namespace Cert.KernelIdeal.Acc

open Cert.KernelIdeal Cert.KernelIdeal.Gen
open Idealize.ShloMosaic.ValueIdx Cert.ScaledDot

variable (m : (ℓ : Loc nD τ sig) → Buf (Elt Ideal) ℓ) (ρ : Dev nD → PrngReg)

/-- What a last point writes back is its block of `out` of the two matrices. -/
theorem flushed_eq (c : Dev nD) (t : Fin cfg0.N) (hf : (cfg0.win 2).flush t = true) :
    (dats m 0 c).flushed 2 t = ((cfg0.win 2).blk t).view.read (Elt Ideal) (out (X m c) (Vm m c)) := by
  have h3 : t.val % 4 = 3 := (flush0_2 t).mp hf
  obtain ⟨-, -, -, -, e4, e5, -⟩ := idx_facts t
  have hN : t.val < 128 := lt_of_lt_of_eq t.isLt (show cfg0.N = 128 from N_0)
  show (cfg0.win 2).cut (grid0.coords t) ((dats m 0 c).after 2 t) = _
  rw [after0_2]
  refine funext fun j => ?_
  show (outsAt0 m c t.val t.isLt).1 j = out (X m c) (Vm m c) (((cfg0.win 2).blk t).view.emb j)
  revert j
  show ∀ j : S32x512.Idx, (outsAt0 m c t.val t.isLt).1 j = out (X m c) (Vm m c) (((cfg0.win 2).blk t).view.emb j)
  intro j
  obtain ⟨r, q, rfl⟩ : ∃ (r : Fin 32) (q : Fin 512), j = ix2 r q := ⟨j 0, j 1, eq_ix2 j⟩
  rw [out_at m c t h3 r q]
  refine congrArg (out (X m c) (Vm m c)) (funext fun a => Fin.ext ?_)
  match a with
  | ⟨0, _⟩ => show r.val = win0_2.index t (0 : Fin 2) * 32 + 1 * r.val; rw [e4]; omega
  | ⟨1, _⟩ => show (t.val / 4 * 512 + q.val) % 16384 = win0_2.index t (1 : Fin 2) * 512 + 1 * q.val; rw [e5]; omega

/-- An index of the result is in point t's block iff each coordinate is in the block's range on its axis. -/
theorem mem_blk (t : Fin cfg0.N) (i : S32x16384.Idx) :
    i ∈ ((cfg0.win 2).blk t).view.set ↔ ∀ a : Fin 2, win0_2.index t a * S32x512.size a ≤ (i a).val ∧ (i a).val < win0_2.index t a * S32x512.size a + S32x512.size a := by
  show i ∈ ((View.whole main_v2).slice (win0_2.rect t)).set ↔ _
  rw [View.set_slice_whole, Rect.mem_set_unit]
  exact Iff.rfl

/-- Column c of the result is written back by point (c / 512)·4 + 3. -/
theorem cover (i : S32x16384.Idx) :
    ∃ t : Fin cfg0.N, (cfg0.win 2).flush t = true ∧ i ∈ ((cfg0.win 2).blk t).view.set := by
  have hi0 : (i 0).val < 32 := (i 0).isLt
  have hi1 : (i 1).val < 16384 := (i 1).isLt
  have hn : (i 1).val / 512 * 4 + 3 < cfg0.N := by rw [show cfg0.N = 128 from N_0]; omega
  obtain ⟨-, -, -, -, e4, e5, -⟩ := idx_facts ⟨(i 1).val / 512 * 4 + 3, hn⟩
  refine ⟨⟨(i 1).val / 512 * 4 + 3, hn⟩, (flush0_2 _).mpr (by show ((i 1).val / 512 * 4 + 3) % 4 = 3; omega), ?_⟩
  rw [mem_blk]
  intro a
  match a with
  | ⟨0, _⟩ =>
    show win0_2.index ⟨(i 1).val / 512 * 4 + 3, hn⟩ (0 : Fin 2) * 32 ≤ (i 0).val ∧ (i 0).val < win0_2.index ⟨(i 1).val / 512 * 4 + 3, hn⟩ (0 : Fin 2) * 32 + 32
    rw [e4]; omega
  | ⟨1, _⟩ =>
    show win0_2.index ⟨(i 1).val / 512 * 4 + 3, hn⟩ (1 : Fin 2) * 512 ≤ (i 1).val ∧ (i 1).val < win0_2.index ⟨(i 1).val / 512 * 4 + 3, hn⟩ (1 : Fin 2) * 512 + 512
    rw [e5]; show ((i 1).val / 512 * 4 + 3) / 4 * 512 ≤ (i 1).val ∧ (i 1).val < ((i 1).val / 512 * 4 + 3) / 4 * 512 + 512; omega

/-- The region's result array ends holding `out` of the two matrices. -/
theorem final (c : Dev nD) : (dats m 0 c).arrAt 2 cfg0.N = out (X m c) (Vm m c) :=
  (dats m 0 c).arrAt_eq_of_cover 2 (out (X m c) (Vm m c)) (flushed_eq m c) cover

/-- The region finds the first argument read row-major as the left matrix, -/
theorem X_eq (c : Dev nD) :
    X m c = shapeCast S32x16384 (m ((c : Thread nD τ).loc main_arg0)) shapeCasts_S2x16x128x128_S32x16384 := by
  show StableHlo.after hostOps0 (fun b => m (c, b)) (Proc.devRef .tc main_v0) = _
  after_results
  rfl

/-- and the second read row-major as the right matrix. -/
theorem Vm_eq (c : Dev nD) :
    Vm m c = shapeCast S16384x16384 (m ((c : Thread nD τ).loc main_arg1)) shapeCasts_S128x128x128x128_S16384x16384 := by
  show StableHlo.after hostOps0 (fun b => m (c, b)) (Proc.devRef .tc main_v1) = _
  after_results
  rfl

/-- The operation after the region reads the region's result row-major as 2 × 16 × 128 × 128. -/
theorem tail_eq (c : Dev nD) :
    Pipeline.afterTail₀ cfgs (dats m) 0 (V0 m) [hostOps1] c main_v3
      = shapeCast S2x16x128x128 ((dats m 0 c).arrAt 2 cfg0.N) shapeCasts_S32x16384_S2x16x128x128 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v2)
      = (dats m 0 c).arrAt 2 cfg0.N := Pipeline.withArrays_arr spec0 launch0.win.arr_inj c _ _ 2
  rw [e]
  rfl

/-- The kernel program's run, read: its result is `whole` of its two arguments, which end unchanged. -/
theorem run : θ_run defs (onTc (τ := τ) (main (F := Ideal))) ⟨m, fun _ => 0, ρ⟩ fun r => ∀ c : Dev nD,
      r.2.mem ((c.tc : Thread nD τ).loc main_v3)
        = whole shapeCasts_S2x16x128x128_S32x16384 shapeCasts_S128x128x128x128_S16384x16384 shapeCasts_S32x16384_S2x16x128x128
            (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 (Pipeline.mem_restRefs_of main_v3 (by decide) (by decide))).trans
        ((tail_eq m c).trans (by rw [final, X_eq, Vm_eq]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Acc

end
-- ==== Proof.RefValue.lean ====
/-
  The reference program's result is `ScaledDot.whole` of its two arguments: its quotient stage, read at (r, q),
  is the contraction ∑ k, max (x (r, k)) 0 · v (k, q) divided by the word of 128, which is that sum times 2⁻⁷.
-/
import proofs.«116813_j56298431316042_2_alg».proof.Proof.Gen.ReferenceIdeal.Read
import proofs.«116813_j56298431316042_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.ScaledDot

/-- The left operand's index at output (r, q) and contraction position k is (r, k). -/
theorem lidx_eq (r : Fin 32) (q : Fin 16384) (k : Fin 16384) : lidx_main_v3 (ix2 r q) k = ix2 r k :=
  funext fun a => Fin.ext (by match a with | ⟨0, _⟩ => rfl | ⟨1, _⟩ => rfl)

/-- The right operand's index at output (r, q) and contraction position k is (k, q). -/
theorem ridx_eq (r : Fin 32) (q : Fin 16384) (k : Fin 16384) : ridx_main_v3 (ix2 r q) k = ix2 k q :=
  funext fun a => Fin.ext (by match a with | ⟨0, _⟩ => rfl | ⟨1, _⟩ => rfl)

/-- The quotient stage is `out` of the two reshaped arguments. -/
theorem quotient_eq (x0 : (⟨S2x16x128x128, .f32⟩ : BufTy).Contents (Elt Ideal)) (x1 : (⟨S128x128x128x128, .f32⟩ : BufTy).Contents (Elt Ideal)) :
    val_main_v5 (F := Ideal) x0 x1 = out (val_main_v1 (F := Ideal) x0) (val_main_v0 (F := Ideal) x1) := by
  funext j
  obtain ⟨r, q, rfl⟩ : ∃ (r : Fin 32) (q : Fin 16384), j = ix2 r q := ⟨j 0, j 1, eq_ix2 j⟩
  rw [val_main_v5_apply, val_main_v3_apply, val_main_v4_apply, val_main_cst_apply]
  simp only [val_main_v2_apply, val_main_call0_v0_apply, val_main_call0_cst_apply, Ideal.hostDivf_def,
    Ideal.maximumf_def, Ideal.ofBits_def, lidx_eq, ridx_eq]
  refine (div_128 _).trans ?_
  unfold out dotAt term
  simp only [pos_val]

/-- The reference's result term is `whole` of its arguments. -/
theorem result_eq (x0 : (⟨S2x16x128x128, .f32⟩ : BufTy).Contents (Elt Ideal)) (x1 : (⟨S128x128x128x128, .f32⟩ : BufTy).Contents (Elt Ideal)) :
    val_main_v6 (F := Ideal) x0 x1
      = whole shapeCasts_S2x16x128x128_S32x16384 shapeCasts_S128x128x128x128_S16384x16384 shapeCasts_S32x16384_S2x16x128x128 x0 x1 := by
  unfold val_main_v6 whole
  rw [quotient_eq]
  rfl

end Cert.ReferenceIdeal.RefValue

end
-- ==== Proof.lean ====
/-
  Both programs compute, from an array `a` of shape 2 × 16 × 128 × 128 and an array `b` of shape 128 × 128 × 128 × 128,

      out (r, q) = (∑ k, max (x (r, k)) 0 · v (k, q)) · 2⁻⁷ ,   x = a read row-major as 32 × 16384, v = b read row-major as 16384 × 16384,

  read row-major as 2 × 16 × 128 × 128 (`ScaledDot.whole`). The reference takes the contraction in one piece and
  divides by 128. The kernel walks a 32 × 4 grid: for each of the 32 column blocks of width 512 it adds, over four
  consecutive points, the four partial sums over runs of 4096 contraction positions onto a zeroed accumulator, and
  after the fourth multiplies by the word of 2⁻⁷ and writes the block. On extended reals the four partial sums added in
  order are the whole sum (addition is commutative and associative, also at the infinities) and division by 128 is
  multiplication by 1/128, so the two results agree for all inputs; the precondition is not used for the values.
  The three frames are the generated ones (the reference's is its generated run with the result dropped); the ideal
  pass rewrote nothing, so `preserves` is trivial.
-/
import proofs.«116813_j56298431316042_2_alg».proof.Defs
import proofs.«116813_j56298431316042_2_alg».proof.Proof.Gen.Kernel
import proofs.«116813_j56298431316042_2_alg».proof.Proof.Gen.Kernel.Skeleton
import proofs.«116813_j56298431316042_2_alg».proof.Proof.Gen.Kernel.Launch
import proofs.«116813_j56298431316042_2_alg».proof.Proof.Gen.Kernel.Points
import proofs.«116813_j56298431316042_2_alg».proof.Proof.Gen.Kernel.Frame
import proofs.«116813_j56298431316042_2_alg».proof.Proof.Gen.KernelIdeal
import proofs.«116813_j56298431316042_2_alg».proof.Proof.Gen.KernelIdeal.Skeleton
import proofs.«116813_j56298431316042_2_alg».proof.Proof.Gen.KernelIdeal.Launch
import proofs.«116813_j56298431316042_2_alg».proof.Proof.Gen.KernelIdeal.Points
import proofs.«116813_j56298431316042_2_alg».proof.Proof.Gen.KernelIdeal.Frame
import proofs.«116813_j56298431316042_2_alg».proof.Proof.Gen.ReferenceIdeal
import proofs.«116813_j56298431316042_2_alg».proof.Proof.Gen.Pre_finite_inputs
import proofs.«116813_j56298431316042_2_alg».proof.Proof.Gen.ReferenceIdeal.Run
import proofs.«116813_j56298431316042_2_alg».proof.Proof.Gen.ReferenceIdeal.Read
import proofs.«116813_j56298431316042_2_alg».proof.Proof.KernelValue
import proofs.«116813_j56298431316042_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two arguments both programs end with `whole` of them. -/
theorem algebraic : Cert.algebraic_KernelIdeal_ReferenceIdeal := by
  intro m ρ m' ρ' _ hagree
  refine ⟨_, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
